-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x256 : Shape := ⟨4, ![32, 8, 256, 256]⟩
abbrev S_ : Shape := ⟨0, ![]⟩

class Facts : Prop where
  bcast_S_S32x8x256x256 : S_.BroadcastsInDim S32x8x256x256 (![] : Fin 0 → Fin S32x8x256x256.rank)
  reducesTo_S32x8x256x256_S_d0_1_2_3 : S32x8x256x256.ReducesTo [0, 1, 2, 3] S_
  h_S_ : 0 < S_.numel

variable [Facts]

def fn {F : FTy → Type} [FloatOps F] (main_arg0 : FVec F S32x8x256x256 .f32) (main_arg1 : FVec F S32x8x256x256 .f32) : IVec S_ 1 :=
  let main_v0 : FVec F S32x8x256x256 .f32 := Host.absf main_arg0
  let main_cst : FVec F S_ .f32 := constant S_ .f32 0x7F800000#32
  let main_v1 : FVec F S32x8x256x256 .f32 := broadcastInDim S32x8x256x256 ![] bcast_S_S32x8x256x256 main_cst
  let main_v2 : IVec S32x8x256x256 1 := cmpf .olt main_v0 main_v1
  let main_c : IVec S_ 1 := constantI S_ 1 1#1
  let main_v3 : IVec S_ 1 := (fun x v => Host.reduce IntOp.andi x v reducesTo_S32x8x256x256_S_d0_1_2_3 h_S_) main_v2 main_c
  let main_v4 : FVec F S32x8x256x256 .f32 := Host.absf main_arg1
  let main_cst_0 : FVec F S_ .f32 := constant S_ .f32 0x7F800000#32
  let main_v5 : FVec F S32x8x256x256 .f32 := broadcastInDim S32x8x256x256 ![] bcast_S_S32x8x256x256 main_cst_0
  let main_v6 : IVec S32x8x256x256 1 := cmpf .olt main_v4 main_v5
  let main_c_1 : IVec S_ 1 := constantI S_ 1 1#1
  let main_v7 : IVec S_ 1 := (fun x v => Host.reduce IntOp.andi x v reducesTo_S32x8x256x256_S_d0_1_2_3 h_S_) main_v6 main_c_1
  let main_v8 : IVec S_ 1 := andi main_v3 main_v7
  main_v8
-- ==== Kernel.lean ====
abbrev S32x8x256x256 : Shape := ⟨4, ![32, 8, 256, 256]⟩
abbrev S2x1x1 : Shape := ⟨3, ![2, 1, 1]⟩
abbrev S32x8x16x256 : Shape := ⟨4, ![32, 8, 16, 256]⟩
abbrev S1x1x1 : Shape := ⟨3, ![1, 1, 1]⟩
abbrev S32x16x256 : Shape := ⟨3, ![32, 16, 256]⟩
abbrev S32x1x16x256 : Shape := ⟨4, ![32, 1, 16, 256]⟩
abbrev S8x16x256 : Shape := ⟨3, ![8, 16, 256]⟩
abbrev S8x16 : Shape := ⟨2, ![8, 16]⟩
abbrev S8x16x1 : Shape := ⟨3, ![8, 16, 1]⟩
abbrev S16x1 : Shape := ⟨2, ![16, 1]⟩
abbrev S1x16x1 : Shape := ⟨3, ![1, 16, 1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x8x16x256, .f32⟩
  | .local _ .vmem, ⟨1, _⟩ => ⟨S32x8x16x256, .f32⟩
  | .local _ .vmem, ⟨2, _⟩ => ⟨S32x8x16x256, .f32⟩
  | .local _ .vmem, ⟨3, _⟩ => ⟨S32x8x16x256, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_24 : BitVec 32 := 0#32
  let v40 : BitVec 1 := Scalar.cmpi .ne v39 c0_i32_24
  v40

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x8x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S32x8x16x256_S32x8x16x256_0_0_0_0 : ∀ a, (![0, 0, 0, 0] : Fin 4 → Nat) a + S32x8x16x256.size a ≤ S32x8x16x256.size a
  h_S32x8x16x256 : 0 < S32x8x16x256.numel
  reduces_S32x8x16x256_S32x16x256 : S32x8x16x256.Reduces [1] S32x16x256
  shapeCasts_S32x16x256_S32x1x16x256 : S32x16x256.ShapeCasts S32x1x16x256
  broadcasts_S32x1x16x256_S32x8x16x256 : S32x1x16x256.Broadcasts S32x8x16x256
  reduces_S32x8x16x256_S8x16x256 : S32x8x16x256.Reduces [0] S8x16x256
  reduces_S8x16x256_S8x16 : S8x16x256.Reduces [2] S8x16
  shapeCasts_S8x16_S8x16x1 : S8x16.ShapeCasts S8x16x1
  reduces_S8x16x1_S16x1 : S8x16x1.Reduces [0] S16x1
  shapeCasts_S16x1_S1x16x1 : S16x1.ShapeCasts S1x16x1
  reduces_S1x16x1_S1x1 : S1x16x1.Reduces [1] S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x16x256.size a ≤ S32x8x256x256.size a
  hwx0_0 : ∀ i : grid0.Coords, EltTy.bits .f32 = 32 ∨ (Rect.block (s := S32x8x256x256) S32x8x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x16x256.size a ≤ S32x8x256x256.size a
  hwx0_1 : ∀ i : grid0.Coords, EltTy.bits .f32 = 32 ∨ (Rect.block (s := S32x8x256x256) S32x8x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S32x8x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x8x256x256 : Shape := ⟨4, ![32, 8, 256, 256]⟩
abbrev S_ : Shape := ⟨0, ![]⟩
abbrev S32x256x256 : Shape := ⟨3, ![32, 256, 256]⟩
abbrev S32x1x256x256 : Shape := ⟨4, ![32, 1, 256, 256]⟩
abbrev S32x524288 : Shape := ⟨2, ![32, 524288]⟩
abbrev S524288 : Shape := ⟨1, ![524288]⟩

abbrev nBuf : Space → Nat
  | .hbm => 42
  | .vmem => 0
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S_, .f32⟩
  | .hbm, ⟨3, _⟩ => ⟨S32x256x256, .f32⟩
  | .hbm, ⟨4, _⟩ => ⟨S_, .f32⟩
  | .hbm, ⟨5, _⟩ => ⟨S32x256x256, .f32⟩
  | .hbm, ⟨6, _⟩ => ⟨S32x256x256, .f32⟩
  | .hbm, ⟨7, _⟩ => ⟨S32x1x256x256, .f32⟩
  | .hbm, ⟨8, _⟩ => ⟨S32x8x256x256, .f32⟩
  | .hbm, ⟨9, _⟩ => ⟨S32x8x256x256, .f32⟩
  | .hbm, ⟨10, _⟩ => ⟨S32x8x256x256, .f32⟩
  | .hbm, ⟨11, _⟩ => ⟨S_, .f32⟩
  | .hbm, ⟨12, _⟩ => ⟨S32x256x256, .f32⟩
  | .hbm, ⟨13, _⟩ => ⟨S32x1x256x256, .f32⟩
  | .hbm, ⟨14, _⟩ => ⟨S32x8x256x256, .f32⟩
  | .hbm, ⟨15, _⟩ => ⟨S32x8x256x256, .f32⟩
  | .hbm, ⟨16, _⟩ => ⟨S32x524288, .f32⟩
  | .hbm, ⟨17, _⟩ => ⟨S32x524288, .f32⟩
  | .hbm, ⟨18, _⟩ => ⟨S32x524288, .f32⟩
  | .hbm, ⟨19, _⟩ => ⟨S_, .f32⟩
  | .hbm, ⟨20, _⟩ => ⟨S524288, .f32⟩
  | .hbm, ⟨21, _⟩ => ⟨S_, .f32⟩
  | .hbm, ⟨22, _⟩ => ⟨S524288, .f32⟩
  | .hbm, ⟨23, _⟩ => ⟨S_, .f32⟩
  | .hbm, ⟨24, _⟩ => ⟨S524288, .f32⟩
  | .hbm, ⟨25, _⟩ => ⟨S524288, .f32⟩
  | .hbm, ⟨26, _⟩ => ⟨S_, .f32⟩
  | .hbm, ⟨27, _⟩ => ⟨S524288, .f32⟩
  | .hbm, ⟨28, _⟩ => ⟨S524288, .f32⟩
  | .hbm, ⟨29, _⟩ => ⟨S_, .f32⟩
  | .hbm, ⟨30, _⟩ => ⟨S524288, .f32⟩
  | .hbm, ⟨31, _⟩ => ⟨S524288, .f32⟩
  | .hbm, ⟨32, _⟩ => ⟨S_, .f32⟩
  | .hbm, ⟨33, _⟩ => ⟨S524288, .f32⟩
  | .hbm, ⟨34, _⟩ => ⟨S524288, .f32⟩
  | .hbm, ⟨35, _⟩ => ⟨S524288, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S32x8x256x256_S32x256x256_d1 : S32x8x256x256.ReducesTo [1] S32x256x256
  h_S_ : 0 < S_.numel
  bcast_S_S32x256x256 : S_.BroadcastsInDim S32x256x256 (![] : Fin 0 → Fin S32x256x256.rank)
  bcast_S32x256x256_S32x1x256x256_0_2_3 : S32x256x256.BroadcastsInDim S32x1x256x256 (![0, 2, 3] : Fin 3 → Fin S32x1x256x256.rank)
  bcast_S32x1x256x256_S32x8x256x256_0_1_2_3 : S32x1x256x256.BroadcastsInDim S32x8x256x256 (![0, 1, 2, 3] : Fin 4 → Fin S32x8x256x256.rank)
  shapeCasts_S32x8x256x256_S32x524288 : S32x8x256x256.ShapeCasts S32x524288
  reducesTo_S32x524288_S524288_d0 : S32x524288.ReducesTo [0] S524288
  bcast_S_S524288 : S_.BroadcastsInDim S524288 (![] : Fin 0 → Fin S524288.rank)
  reducesTo_S524288_S_d0 : S524288.ReducesTo [0] S_

variable [Facts₀]

class Facts : Prop extends Facts₀ where

variable [Facts]
-- ==== Proof.Pieces.lean ====
/-
  What one grid point leaves behind, case by case.

  The body keeps a one-element running sum in a scratch buffer.  At a point that starts a core's run of eight blocks it
  first stores zero there; at every point it adds the block's sum to what the scratch holds and stores that back; at a
  point that ends a run of eight it also copies the scratch to the output block.  Read off the stores each case makes:
    the first point of a run leaves  (zero + block sum)              in the scratch,
    every other point leaves         (what was there + block sum)    in the scratch,
    and the last point of a run leaves that same value in the output block too.
  Here "block sum" is the payload `k0_pay3` of the two input blocks, "zero" the payload `k0_pay2`, and the addition the
  payload `k0_pay1`; nothing is said yet about what those payloads compute.  Stated at any float instance.
-/
import proofs.«130776_j78065325572508_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.DiceFrame
open Cert.KernelIdeal Cert.KernelIdeal.Gen
variable {F : FTy → Type} [FloatOps F]

/-- The zero offsets of a whole-buffer access, as the constant function. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A middle point of a run of eight: the scratch ends at what it held plus the block's sum. -/
theorem sout_B (c : Dev nD) (i : grid0.Coords) (a2 : Memref sig .tc .vmem S32x8x16x256 .f32) (h2 : a2.IsWhole)
    (a3 : Memref sig .tc .vmem S32x8x16x256 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : ¬cond0_1 i)
    (x0 x1 : Vec F S32x8x16x256 .f32) (xs0 : Vec F S1x1x1 .f32) :
    sout0_B_0 c i a2 h2 a3 h3 a4 h4 a5 h5 hc0 hc1 x0 x1 xs0 = k0_pay1 (k0_pay3 x0 x1) xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz3]
  simp only [View.readAt_eq_ld, h2.read_unread, h3.read_unread, h5.read_unread, View.ld_unit_zero (S := S1x1x1) hz3, View.ld_unit_zero (S := S32x8x16x256) hz4]

/-- The last point of a run of eight: the scratch likewise, -/
theorem sout_C (c : Dev nD) (i : grid0.Coords) (a2 : Memref sig .tc .vmem S32x8x16x256 .f32) (h2 : a2.IsWhole)
    (a3 : Memref sig .tc .vmem S32x8x16x256 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 x1 : Vec F S32x8x16x256 .f32) (xs0 : Vec F S1x1x1 .f32) :
    sout0_C_0 c i a2 h2 a3 h3 a4 h4 a5 h5 hc0 hc1 x0 x1 xs0 = k0_pay1 (k0_pay3 x0 x1) xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S1x1x1) hz3, View.ld_unit_zero (S := S32x8x16x256) hz4]

/-- and the output block receives the value just stored in the scratch (the body reads it back). -/
theorem out_C (c : Dev nD) (i : grid0.Coords) (a2 : Memref sig .tc .vmem S32x8x16x256 .f32) (h2 : a2.IsWhole)
    (a3 : Memref sig .tc .vmem S32x8x16x256 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 x1 : Vec F S32x8x16x256 .f32) (xs0 : Vec F S1x1x1 .f32) :
    out0_C_2 c i a2 h2 a3 h3 a4 h4 a5 h5 hc0 hc1 x0 x1 xs0 = k0_pay1 (k0_pay3 x0 x1) xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1x1) _ hz3]
  simp only [View.readAt_eq_ld, h2.read_unread, h3.read_unread, h5.read_unread, View.ld_unit_zero (S := S1x1x1) hz3, View.ld_unit_zero (S := S32x8x16x256) hz4]

/-- The first point of a run of eight: the zero stored first is what the addition reads back. -/
theorem sout_A (c : Dev nD) (i : grid0.Coords) (a2 : Memref sig .tc .vmem S32x8x16x256 .f32) (h2 : a2.IsWhole)
    (a3 : Memref sig .tc .vmem S32x8x16x256 .f32) (h3 : a3.IsWhole) (a4 : Memref sig .tc .vmem S1x1x1 .f32) (h4 : a4.IsWhole)
    (a5 : Memref sig .tc .vmem S1x1x1 .f32) (h5 : a5.IsWhole) (hc0 : cond0_0 i) (hc1 : ¬cond0_1 i)
    (x0 x1 : Vec F S32x8x16x256 .f32) :
    sout0_A_0 c i a2 h2 a3 h3 a4 h4 a5 h5 hc0 hc1 x0 x1 = k0_pay1 (k0_pay3 x0 x1) (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h5.read_unread, View.ld_unit_zero (S := S1x1x1) hz3, View.ld_unit_zero (S := S32x8x16x256) hz4]

end Cert.KernelIdeal.DiceFrame
end
-- ==== Proof.Spec.lean ====
/-
  The common mathematics of the two programs, stated once over plain extended reals.

  Both programs compute a Dice loss of a softmax.  At one position (h, w) of the 256 x 256 plane the data is a
  COLUMN: the 32 x 8 values x[b, c] (batch b, class c) of the logits and t[b, c] of the targets.  For a column,
    m[b]    = max over c of x[b, c]                      (a fold of max from the literal -inf),
    e[b, c] = exp (x[b, c] - m[b]),      s[b] = sum over c of e[b, c],
    p[b, c] = e[b, c] / s[b]             (the softmax; one program writes e * (1 / s), the other e / s),
    term[c] = (2 * sum_b p[b,c] * t[b,c] + eps) / (sum_b (p[b,c] + t[b,c]) + eps),
  and the result is 1 - (sum over c, h, w of term) / 524288.
  The two spellings of the softmax are kept apart here (`softK`, `softR`); that they agree when the logits are real
  numbers is proved in the algebra module.  The six float literals are kept as the words both programs print.
-/
import Idealize.ShloMosaic.PureOps.Ideal
import Idealize.ShloMosaic.Lib.ValueIdx

noncomputable section

namespace Cert.Dice

open Idealize.ShloMosaic Idealize.ShloMosaic.ValueIdx

/-- The literals of the two programs, as the extended reals their words denote. -/
def NEG : EReal := Ideal.ofBits .f32 0xFF800000#32
def ZERO : EReal := Ideal.ofBits .f32 0x00000000#32
def ONE : EReal := Ideal.ofBits .f32 0x3F800000#32
def TWO : EReal := Ideal.ofBits .f32 0x40000000#32
def EPS : EReal := Ideal.ofBits .f32 0x358637BD#32
def NCOLS : EReal := Ideal.ofBits .f32 0x49000000#32

/-- A column: the 32 x 8 values at one position of the plane. -/
abbrev Col := Fin 32 → Fin 8 → EReal

/-- The largest logit of batch entry `b` over the eight classes, folded from -inf. -/
def colMax (x : Col) (b : Fin 32) : EReal := (Finset.univ : Finset (Fin 8)).fold max NEG (fun c => x b c)
/-- The shifted exponential. -/
def colExp (x : Col) (b : Fin 32) (c : Fin 8) : EReal := Ideal.exp (x b c - colMax x b)
/-- The softmax's denominator. -/
def colDen (x : Col) (b : Fin 32) : EReal := ∑ c : Fin 8, colExp x b c
/-- The softmax as a product with the reciprocal of the denominator. -/
def softK (x : Col) : Col := fun b c => colExp x b c * Ideal.div ONE (colDen x b)
/-- The softmax as a quotient. -/
def softR (x : Col) : Col := fun b c => Ideal.div (colExp x b c) (colDen x b)
/-- The Dice term of class `c` from probabilities `p` and targets `t`. -/
def termOf (p t : Col) (c : Fin 8) : EReal :=
  Ideal.div (TWO * (∑ b : Fin 32, p b c * t b c) + EPS) ((∑ b : Fin 32, (p b c + t b c)) + EPS)
def termK (x t : Col) (c : Fin 8) : EReal := termOf (softK x) t c
def termR (x t : Col) (c : Fin 8) : EReal := termOf (softR x) t c

/-- The whole arrays and one 16-row block of them. -/
abbrev Arr := (⟨4, ![32, 8, 256, 256]⟩ : Shape).Idx → EReal
abbrev Blk := (⟨4, ![32, 8, 16, 256]⟩ : Shape).Idx → EReal

/-- The column of an array at row `h`, lane `w`; of a block at its row `r`, lane `w`. -/
def col (X : Arr) (h w : Fin 256) : Col := fun b c => X (ix4 b c h w)
def bcol (x : Blk) (r : Fin 16) (w : Fin 256) : Col := fun b c => x (ix4 b c r w)

/-- Row `r` of block number `n` is row `16 n + r` of the array (for `n < 16`; reduced mod 256 to be total). -/
def rowOf (n : ℕ) (r : Fin 16) : Fin 256 := ⟨(n * 16 + r.val) % 256, Nat.mod_lt _ (by decide)⟩

/-- The sum of a block's terms, rows outermost, then classes, then lanes. -/
def tileSum (x0 x1 : Blk) : EReal :=
  ∑ r : Fin 16, ∑ c : Fin 8, ∑ w : Fin 256, termK (bcol x0 r w) (bcol x1 r w) c

/-- The sum over the whole plane and the classes. -/
def total (f : Fin 8 → Fin 256 → Fin 256 → EReal) : EReal := ∑ c : Fin 8, ∑ h : Fin 256, ∑ w : Fin 256, f c h w

/-- The running sum a core keeps over its eight blocks: restarted from zero at every eighth block. -/
def accum (tile : ℕ → EReal) : ℕ → EReal
  | 0 => ZERO + tile 0
  | n + 1 => if (n + 1) % 8 = 0 then ZERO + tile (n + 1) else accum tile n + tile (n + 1)

/-- The loss from the total. -/
def result (tot : EReal) : EReal := ONE - Ideal.div tot NCOLS

/-- THE SPECIFICATION: the loss of logits `X` and targets `T`. -/
def G (X T : Arr) : EReal := result (ZERO + total (fun c h w => termR (col X h w) (col T h w) c))

end Cert.Dice

end
-- ==== Proof.Acc.lean ====
/-
  The running sum across the grid, and what the output array ends holding.

  Write tile(n) for the sum the body computes of block n (the payload `k0_pay3` of the two input blocks at point n).
  By the three case readings, the scratch after point n holds
      zero + tile(n)                          when n starts a run of eight blocks,
      (scratch after point n - 1) + tile(n)   otherwise,
  which is the recursion `Cert.Dice.accum`; so by induction on the point the scratch after point n is
  `accum tile n`.  A point that ends a run of eight copies that value to the output block, and those are exactly the
  points whose block is written back: point 7 to entry 0 of the two-entry result array and point 15 to entry 1.  The
  two entries cover the array, so it ends at  i ↦ accum tile (8 i + 7).
-/
import proofs.«130776_j78065325572508_2_alg».proof.Proof.Pieces
import proofs.«130776_j78065325572508_2_alg».proof.Proof.Spec
import Idealize.ShloMosaic.Lib.Pipeline.Value
import Idealize.ShloMosaic.Lib.ValueIdx

noncomputable section
open Idealize.ShloMosaic Idealize.ShloMosaic.TcCoe Idealize.SL.Sem Idealize.ShloMosaic.ValueIdx
open Idealize.ShloMosaic.Pipeline (Dat)

namespace Cert.KernelIdeal.DiceFrame
open Cert.KernelIdeal Cert.KernelIdeal.Gen Cert.Dice

variable (m : (ℓ : Loc nD τ sig) → Buf (Elt Ideal) ℓ) (ρ : Dev nD → PrngReg)

/-- The one index of a one-element vector. -/
theorem idx1 (j : S1x1x1.Idx) : j = ix3 0 0 0 := by
  funext a
  apply Fin.ext
  match a with
  | ⟨0, _⟩ => show (j 0).val = 0; have h : (j 0).val < 1 := (j 0).isLt; omega
  | ⟨1, _⟩ => show (j 1).val = 0; have h : (j 1).val < 1 := (j 1).isLt; omega
  | ⟨2, _⟩ => show (j 2).val = 0; have h : (j 2).val < 1 := (j 2).isLt; omega

/-- The addition payload, at the one index: what was there plus the block's sum. -/
theorem pay1_apply (a : FVec Ideal S1x1x1 .f32) (b : Vec Ideal S1x1x1 .f32) (j : S1x1x1.Idx) :
    k0_pay1 (F := Ideal) a b j = b j + a j := by
  unfold k0_pay1
  simp only [shapeCast_self]
  rfl

/-- The zero payload, at the one index. -/
theorem pay2_apply (j : S1x1x1.Idx) : k0_pay2 (F := Ideal) j = ZERO := by
  unfold k0_pay2
  simp only [shapeCast_self]
  rfl

/-- The sum the body computes of block `n` (zero past the grid, where nothing reads it). -/
def tileAt (c : Dev nD) (n : ℕ) : EReal :=
  if h : n < cfg0.N then k0_pay3 (F := Ideal) (iblk m c 0 ⟨n, h⟩) (iblk m c 1 ⟨n, h⟩) (ix3 0 0 0) else 0

theorem tileAt_of_lt (c : Dev nD) (n : ℕ) (h : n < cfg0.N) (j : S1x1x1.Idx) :
    k0_pay3 (F := Ideal) (iblk m c 0 ⟨n, h⟩) (iblk m c 1 ⟨n, h⟩) j = tileAt m c n := by
  unfold tileAt
  rw [dif_pos h, idx1 j]

/-- The scratch after point `n` is the running sum. -/
theorem scratch_eq (c : Dev nD) : ∀ (n : ℕ) (hn : n < cfg0.N) (j : S1x1x1.Idx),
    (outsAt0 m c n hn).2 j = accum (tileAt m c) n
  | 0, hn, j => by
    rw [outsAt0_A m c ⟨0, hn⟩ (Nat.zero_mod _) (show ¬(0 : ℕ) % 8 = 7 by decide)]
    dsimp only
    rw [sout_A, pay1_apply, pay2_apply, tileAt_of_lt]
    rfl
  | n + 1, hn, j => by
    have hN : cfg0.N = 16 := N_0
    by_cases h0 : (n + 1) % 8 = 0
    · have h1 : ¬(n + 1) % 8 = 7 := by omega
      rw [outsAt0_A m c ⟨n + 1, hn⟩ h0 h1]
      dsimp only
      rw [sout_A, pay1_apply, pay2_apply, tileAt_of_lt]
      rw [accum, if_pos h0]
    · by_cases h1 : (n + 1) % 8 = 7
      · rw [outsAt0_C m c ⟨n + 1, hn⟩ h0 h1]
        dsimp only
        rw [sout_C, pay1_apply, tileAt_of_lt]
        rw [accum, if_neg h0]
        exact congrArg (· + tileAt m c (n + 1)) (scratch_eq c n _ j)
      · rw [outsAt0_B m c ⟨n + 1, hn⟩ h0 h1]
        dsimp only
        rw [sout_B, pay1_apply, tileAt_of_lt]
        rw [accum, if_neg h0]
        exact congrArg (· + tileAt m c (n + 1)) (scratch_eq c n _ j)

/-- At a point that ends a run of eight the output block holds the running sum too. -/
theorem out_eq (c : Dev nD) (t : Fin cfg0.N) (h1 : t.val % 8 = 7) (j : S1x1x1.Idx) :
    (outsAt0 m c t.val t.isLt).1 j = accum (tileAt m c) t.val := by
  have h0 : ¬t.val % 8 = 0 := by omega
  have e := scratch_eq m c t.val t.isLt j
  rw [outsAt0_C m c t h0 h1] at e ⊢
  dsimp only at e ⊢
  rw [sout_C] at e
  rw [out_C]
  exact e

end Cert.KernelIdeal.DiceFrame
end
-- ==== Proof.KernelValue.lean ====
/-
  The kernel's program, read as a value.

  The result array of the region has two entries, one per core: entry i ends at the running sum after point 8 i + 7
  (the point that ends core i's run of eight blocks writes its block back there; the two blocks cover the array).
  The three host operations after the region add the two entries from zero, divide by 524288 and subtract from one.
  So every fair execution ends with the program's result at
        1 - (0 + (entry 0 + entry 1)) / 524288,
  the arguments unchanged.  A block of an input window at point t is rows 16 t .. 16 t + 15 of its array.
-/
import proofs.«130776_j78065325572508_2_alg».proof.Proof.Acc
import Idealize.ShloMosaic.Lib.StableHlo.Run
import Idealize.ShloMosaic.Lib.Pipeline.FrameSuffix
import Idealize.ShloMosaic.PureOps.Ideal.Laws

noncomputable section
open Idealize.ShloMosaic Idealize.ShloMosaic.TcCoe Idealize.SL.Sem Idealize.ShloMosaic.ValueIdx
open Idealize.ShloMosaic.Pipeline (Dat)

namespace Cert.KernelIdeal.DiceFrame
open Cert.KernelIdeal Cert.KernelIdeal.Gen Cert.Dice

variable (m : (ℓ : Loc nD τ sig) → Buf (Elt Ideal) ℓ) (ρ : Dev nD → PrngReg)

/-- The two entries the result array ends holding: core `i`'s running sum after its eighth block. -/
def partials (c : Dev nD) : S2x1x1.Idx → EReal :=
  fun i => accum (tileAt m c) (8 * (i 0).val + 7)

/-- The output window's block index at point `t` along the first axis: the core's number. -/
theorem idx2_0 : ∀ t : Fin cfg0.N, win0_2.index t (0 : Fin 3) = t.val / 8 :=
  (by decide +kernel : ∀ t : Fin grid0.N, win0_2.index t (0 : Fin 3) = t.val / 8)

/-- What a point that ends a run of eight writes back is its block of `partials`. -/
theorem flushed_eq (c : Dev nD) (t : Fin cfg0.N) (hf : (cfg0.win 2).flush t = true) :
    (dats m 0 c).flushed 2 t = ((cfg0.win 2).blk t).view.read (Elt Ideal) (partials m c) := by
  have h7 : t.val % 8 = 7 := (flush0_2 t).mp hf
  show (cfg0.win 2).cut (grid0.coords t) ((dats m 0 c).after 2 t) = _
  rw [after0_2]
  funext y
  rw [View.read_apply, cast_eq]
  show (outsAt0 m c t.val t.isLt).1 ((cfg0.win 2).xinj (grid0.coords t) y) = partials m c (((cfg0.win 2).blk t).view.emb y)
  rw [out_eq m c t h7]
  show accum (tileAt m c) t.val = accum (tileAt m c) (8 * ((((cfg0.win 2).blk t).view.emb y) 0).val + 7)
  refine congrArg (accum (tileAt m c)) ?_
  have hi := idx2_0 t
  have hy : (y 0).val < 1 := (y 0).isLt
  show t.val = 8 * (win0_2.index t 0 * 1 + 1 * (y 0).val) + 7
  rw [hi]
  omega

/-- Entry `i` of the result array lies in the block written back at point `8 i + 7`. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 1 := (i 1).isLt
  have h2 : (i 2 : Nat) < 1 := (i 2).isLt
  rcases (by omega : (i 0 : Nat) = 0 ∨ (i 0 : Nat) = 1) with e | e
  ·
    refine ⟨t0_7, (flush0_2 t0_7).mpr rfl, ?_⟩
    show i ∈ ((View.whole main_v0).slice (win0_2.rect t0_7)).set
    rw [View.set_slice_whole, Rect.mem_set_unit]
    intro a
    match a with
    | ⟨0, _⟩ =>
      show win0_2.index t0_7 0 * win0_2.size 0 ≤ (i 0 : Nat) ∧ (i 0 : Nat) < win0_2.index t0_7 0 * win0_2.size 0 + win0_2.xsize (grid0.coords t0_7) 0
      rw [show win0_2.index t0_7 0 * win0_2.size 0 = 0 from by decide +kernel, show win0_2.xsize (grid0.coords t0_7) 0 = 1 from by decide +kernel]; omega
    | ⟨1, _⟩ =>
      show win0_2.index t0_7 1 * win0_2.size 1 ≤ (i 1 : Nat) ∧ (i 1 : Nat) < win0_2.index t0_7 1 * win0_2.size 1 + win0_2.xsize (grid0.coords t0_7) 1
      rw [show win0_2.index t0_7 1 * win0_2.size 1 = 0 from by decide +kernel, show win0_2.xsize (grid0.coords t0_7) 1 = 1 from by decide +kernel]; omega
    | ⟨2, _⟩ =>
      show win0_2.index t0_7 2 * win0_2.size 2 ≤ (i 2 : Nat) ∧ (i 2 : Nat) < win0_2.index t0_7 2 * win0_2.size 2 + win0_2.xsize (grid0.coords t0_7) 2
      rw [show win0_2.index t0_7 2 * win0_2.size 2 = 0 from by decide +kernel, show win0_2.xsize (grid0.coords t0_7) 2 = 1 from by decide +kernel]; omega
  ·
    refine ⟨t0_15, (flush0_2 t0_15).mpr rfl, ?_⟩
    show i ∈ ((View.whole main_v0).slice (win0_2.rect t0_15)).set
    rw [View.set_slice_whole, Rect.mem_set_unit]
    intro a
    match a with
    | ⟨0, _⟩ =>
      show win0_2.index t0_15 0 * win0_2.size 0 ≤ (i 0 : Nat) ∧ (i 0 : Nat) < win0_2.index t0_15 0 * win0_2.size 0 + win0_2.xsize (grid0.coords t0_15) 0
      rw [show win0_2.index t0_15 0 * win0_2.size 0 = 1 from by decide +kernel, show win0_2.xsize (grid0.coords t0_15) 0 = 1 from by decide +kernel]; omega
    | ⟨1, _⟩ =>
      show win0_2.index t0_15 1 * win0_2.size 1 ≤ (i 1 : Nat) ∧ (i 1 : Nat) < win0_2.index t0_15 1 * win0_2.size 1 + win0_2.xsize (grid0.coords t0_15) 1
      rw [show win0_2.index t0_15 1 * win0_2.size 1 = 0 from by decide +kernel, show win0_2.xsize (grid0.coords t0_15) 1 = 1 from by decide +kernel]; omega
    | ⟨2, _⟩ =>
      show win0_2.index t0_15 2 * win0_2.size 2 ≤ (i 2 : Nat) ∧ (i 2 : Nat) < win0_2.index t0_15 2 * win0_2.size 2 + win0_2.xsize (grid0.coords t0_15) 2
      rw [show win0_2.index t0_15 2 * win0_2.size 2 = 0 from by decide +kernel, show win0_2.xsize (grid0.coords t0_15) 2 = 1 from by decide +kernel]; omega

/-- So the result array ends holding the two running sums. -/
theorem final (c : Dev nD) : (dats m 0 c).arrAt 2 cfg0.N = partials m c :=
  (dats m 0 c).arrAt_eq_of_cover 2 (partials m c) (flushed_eq m c) (cover c)

/-- The index map of input window 0 at point `t`: block `t` along the row axis, block 0 on the others. -/
theorem widx0 : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, win0_0.index t (0 : Fin 4) = 0 ∧ win0_0.index t (1 : Fin 4) = 0
    ∧ win0_0.index t (2 : Fin 4) = t.val ∧ win0_0.index t (3 : Fin 4) = 0)

/-- Row `r` of block `t` of input 0 is row `16 t + r` of the array. -/
theorem blk0_at (c : Dev nD) (t : Fin cfg0.N) (b : Fin 32) (k : Fin 8) (r : Fin 16) (w : Fin 256) :
    iblk m c 0 t (ix4 b k r w) = m ((c.tc : Thread nD τ).loc main_arg0) (ix4 b k (rowOf t.val r) w) := by
  have hN : t.val < 16 := lt_of_lt_of_eq t.isLt N_0
  obtain ⟨i0, i1, i2, i3⟩ := widx0 t
  unfold iblk
  rw [View.read_apply]
  show V m c main_arg0 (((cfg0.win 0).blk t).view.emb (ix4 b k r w)) = V m c main_arg0 (ix4 b k (rowOf t.val r) w)
  refine congrArg (V m c main_arg0) (funext fun a => Fin.ext ?_)
  match a with
  | ⟨0, _⟩ => show win0_0.index t 0 * 32 + 1 * b.val = b.val; rw [i0]; omega
  | ⟨1, _⟩ => show win0_0.index t 1 * 8 + 1 * k.val = k.val; rw [i1]; omega
  | ⟨2, _⟩ => show win0_0.index t 2 * 16 + 1 * r.val = (t.val * 16 + r.val) % 256; rw [i2]; have := r.isLt; omega
  | ⟨3, _⟩ => show win0_0.index t 3 * 256 + 1 * w.val = w.val; rw [i3]; omega

/-- The index map of input window 1 at point `t`: block `t` along the row axis, block 0 on the others. -/
theorem widx1 : ∀ t : Fin cfg0.N, win0_1.index t (0 : Fin 4) = 0 ∧ win0_1.index t (1 : Fin 4) = 0
    ∧ win0_1.index t (2 : Fin 4) = t.val ∧ win0_1.index t (3 : Fin 4) = 0 :=
  (by decide +kernel : ∀ t : Fin grid0.N, win0_1.index t (0 : Fin 4) = 0 ∧ win0_1.index t (1 : Fin 4) = 0
    ∧ win0_1.index t (2 : Fin 4) = t.val ∧ win0_1.index t (3 : Fin 4) = 0)

/-- Row `r` of block `t` of input 1 is row `16 t + r` of the array. -/
theorem blk1_at (c : Dev nD) (t : Fin cfg0.N) (b : Fin 32) (k : Fin 8) (r : Fin 16) (w : Fin 256) :
    iblk m c 1 t (ix4 b k r w) = m ((c.tc : Thread nD τ).loc main_arg1) (ix4 b k (rowOf t.val r) w) := by
  have hN : t.val < 16 := lt_of_lt_of_eq t.isLt N_0
  obtain ⟨i0, i1, i2, i3⟩ := widx1 t
  unfold iblk
  rw [View.read_apply]
  show V m c main_arg1 (((cfg0.win 1).blk t).view.emb (ix4 b k r w)) = V m c main_arg1 (ix4 b k (rowOf t.val r) w)
  refine congrArg (V m c main_arg1) (funext fun a => Fin.ext ?_)
  match a with
  | ⟨0, _⟩ => show win0_1.index t 0 * 32 + 1 * b.val = b.val; rw [i0]; omega
  | ⟨1, _⟩ => show win0_1.index t 1 * 8 + 1 * k.val = k.val; rw [i1]; omega
  | ⟨2, _⟩ => show win0_1.index t 2 * 16 + 1 * r.val = (t.val * 16 + r.val) % 256; rw [i2]; have := r.isLt; omega
  | ⟨3, _⟩ => show win0_1.index t 3 * 256 + 1 * w.val = w.val; rw [i3]; omega

/-- The host's sum of the two entries, from zero. -/
theorem hostSum_apply (y : (⟨S2x1x1, .f32⟩ : BufTy).Contents (Elt Ideal)) (j : S_.Idx) :
    Host.reduceAdd (F := Ideal) y (constant S_ .f32 0x00000000#32) reducesTo_S2x1x1_S_d0_1_2 h_S_ j
      = ZERO + ∑ i : S2x1x1.Idx, y i := by
  simp only [Host.reduceAdd, Ideal.hostReduceAdd_def]
  exact Ideal.hostReduceAdd_total reducesTo_S2x1x1_S_d0_1_2 (fun b => b.elim0) y _ j

/-- The kernel program's value. -/
def kernelVal (c : Dev nD) : EReal := result (ZERO + ∑ i : S2x1x1.Idx, partials m c i)

/-- The three host operations after the region, applied to the region's exit contents. -/
theorem tail_eq (c : Dev nD) :
    Pipeline.afterTail₀ cfgs (dats m) 0 (V0 m) [hostOps1] c main_v3 = fun _ => kernelVal m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v0)
      = partials m c := (Pipeline.withArrays_arr spec0 launch0.win.arr_inj c _ _ 2).trans (final m c)
  rw [e]
  funext j
  show Ideal.ofBits .f32 0x3F800000#32 - Ideal.div (Host.reduceAdd (F := Ideal) (partials m c) (constant S_ .f32 0x00000000#32) reducesTo_S2x1x1_S_d0_1_2 h_S_ j) (Ideal.ofBits .f32 0x49000000#32) = _
  rw [hostSum_apply]
  rfl

/-- THE RUN: every fair execution ends with the result at `kernelVal` and the arguments unchanged. -/
theorem run : θ_run defs (onTc (τ := τ) (main (F := Ideal))) ⟨m, fun _ => 0, ρ⟩ fun r => ∀ c : Dev nD,
      r.2.mem ((c.tc : Thread nD τ).loc main_v3) = (fun _ => kernelVal m c : Buf (Elt Ideal) ((c.tc : Thread nD τ).loc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 rfl (fun w => by fin_cases w <;> decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.DiceFrame
end
-- ==== Proof.TilePayload.lean ====
/-
  One block of the kernel, read at the ideal values.

  A block holds, for 16 rows and 256 lanes, the 32 x 8 logits and targets of every position (row, lane).  From them the
  kernel takes, position by position, the largest logit over the classes (a fold of max from -inf), the shifted
  exponentials, their sum over the classes, the reciprocal of that sum, and the softmax as the product of the two; then
  per class the two batch sums of the Dice term and their quotient; and last it adds the terms up, first over the lanes,
  then over the classes, then over the rows.  Every one of these steps is an array operation.  This module reads each of
  them at an index written by its coordinates: a reduction over one axis is the sum (or the fold of max) over that
  axis's coordinate, a unit axis added by a change of shape does not move an element, a unit axis spread over the
  classes reads the one element it had.  Composed, the block's one number is the triple sum `tileSum` of the
  specification.  Nothing here needs the logits to be finite: the softmax is kept in the product spelling the kernel uses.
-/
import proofs.«130776_j78065325572508_2_alg».proof.Proof.Spec
import proofs.«130776_j78065325572508_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

open Idealize.ShloMosaic Idealize.ShloMosaic.TcCoe Idealize.SL.Sem Idealize.ShloMosaic.ValueIdx

noncomputable section

namespace Cert.Dice

namespace Tile

open Cert.KernelIdeal (S32x8x16x256 S32x16x256 S32x1x16x256 S8x16x256 S8x16 S8x16x1 S16x1 S1x16x1 S1x1 S1x1x1)

/-! ## The index a one-axis reduction reads: the reduced index with the dropped coordinate put back -/

/-- Classes dropped from (batch, class, row, lane). -/
theorem lift_class (h : Shape.Reduces S32x8x16x256 [1] S32x16x256) (b : Fin 32) (r : Fin 16) (w : Fin 256) (c : Fin 8) :
    h.lift (ix3 b r w) c = ix4 b c r w := by
  funext a; apply Fin.ext
  match a with
  | ⟨0, _⟩ => rfl
  | ⟨1, _⟩ => rfl
  | ⟨2, _⟩ => rfl
  | ⟨3, _⟩ => rfl

/-- The batch dropped from (batch, class, row, lane). -/
theorem lift_batch (h : Shape.Reduces S32x8x16x256 [0] S8x16x256) (c : Fin 8) (r : Fin 16) (w : Fin 256) (b : Fin 32) :
    h.lift (ix3 c r w) b = ix4 b c r w := by
  funext a; apply Fin.ext
  match a with
  | ⟨0, _⟩ => rfl
  | ⟨1, _⟩ => rfl
  | ⟨2, _⟩ => rfl
  | ⟨3, _⟩ => rfl

/-- Lanes dropped from (class, row, lane). -/
theorem lift_lane (h : Shape.Reduces S8x16x256 [2] S8x16) (c : Fin 8) (r : Fin 16) (w : Fin 256) :
    h.lift (ix2 c r) w = ix3 c r w := by
  funext a; apply Fin.ext
  match a with
  | ⟨0, _⟩ => rfl
  | ⟨1, _⟩ => rfl
  | ⟨2, _⟩ => rfl

/-- Classes dropped from (class, row, unit). -/
theorem lift_class' (h : Shape.Reduces S8x16x1 [0] S16x1) (r : Fin 16) (u : Fin 1) (c : Fin 8) :
    h.lift (ix2 r u) c = ix3 c r u := by
  funext a; apply Fin.ext
  match a with
  | ⟨0, _⟩ => rfl
  | ⟨1, _⟩ => rfl
  | ⟨2, _⟩ => rfl

/-- Rows dropped from (unit, row, unit). -/
theorem lift_row (h : Shape.Reduces S1x16x1 [1] S1x1) (u u' : Fin 1) (r : Fin 16) :
    h.lift (ix2 u u') r = ix3 u r u' := by
  funext a; apply Fin.ext
  match a with
  | ⟨0, _⟩ => rfl
  | ⟨1, _⟩ => rfl
  | ⟨2, _⟩ => rfl

/-! ## The six reductions read at an index -/

/-- The maximum over the classes, folded from the accumulator's word. -/
theorem max_class_apply (v : FVec Ideal S32x8x16x256 .f32) (h : Shape.Reduces S32x8x16x256 [1] S32x16x256)
    (hφ : FKind.Formats .f32) (hacc : (0xFF800000#32 : BitVec 32) = FKind.maximumf.neutral .f32 hφ)
    (b : Fin 32) (r : Fin 16) (w : Fin 256) :
    multiReduction (F := Ideal) .maximumf [1] S32x16x256 v 0xFF800000#32 h hφ hacc (ix3 b r w)
      = (Finset.univ : Finset (Fin 8)).fold max NEG (fun c => v (ix4 b c r w)) :=
  (Ideal.multiReduction_maximumf_single v _ h hφ hacc (ix3 b r w)).trans
    (congrArg (fun f : Fin 8 → EReal => (Finset.univ : Finset (Fin 8)).fold max NEG f)
      (funext fun c => congrArg v (lift_class h b r w c)))

/-- The sum over the classes. -/
theorem sum_class_apply (v : FVec Ideal S32x8x16x256 .f32) (h : Shape.Reduces S32x8x16x256 [1] S32x16x256)
    (hφ : FKind.Formats .f32) (hacc : (0x00000000#32 : BitVec 32) = FKind.add.neutral .f32 hφ)
    (b : Fin 32) (r : Fin 16) (w : Fin 256) :
    multiReduction (F := Ideal) .add [1] S32x16x256 v 0x00000000#32 h hφ hacc (ix3 b r w) = ∑ c : Fin 8, v (ix4 b c r w) :=
  (Ideal.multiReduction_add_single v _ h hφ hacc (ix3 b r w)).trans
    (Finset.sum_congr rfl fun c _ => congrArg v (lift_class h b r w c))

/-- The sum over the batch. -/
theorem sum_batch_apply (v : FVec Ideal S32x8x16x256 .f32) (h : Shape.Reduces S32x8x16x256 [0] S8x16x256)
    (hφ : FKind.Formats .f32) (hacc : (0x00000000#32 : BitVec 32) = FKind.add.neutral .f32 hφ)
    (c : Fin 8) (r : Fin 16) (w : Fin 256) :
    multiReduction (F := Ideal) .add [0] S8x16x256 v 0x00000000#32 h hφ hacc (ix3 c r w) = ∑ b : Fin 32, v (ix4 b c r w) :=
  (Ideal.multiReduction_add_single v _ h hφ hacc (ix3 c r w)).trans
    (Finset.sum_congr rfl fun b _ => congrArg v (lift_batch h c r w b))

/-- The sum over the lanes. -/
theorem sum_lane_apply (v : FVec Ideal S8x16x256 .f32) (h : Shape.Reduces S8x16x256 [2] S8x16)
    (hφ : FKind.Formats .f32) (hacc : (0x00000000#32 : BitVec 32) = FKind.add.neutral .f32 hφ)
    (c : Fin 8) (r : Fin 16) :
    multiReduction (F := Ideal) .add [2] S8x16 v 0x00000000#32 h hφ hacc (ix2 c r) = ∑ w : Fin 256, v (ix3 c r w) :=
  (Ideal.multiReduction_add_single v _ h hφ hacc (ix2 c r)).trans
    (Finset.sum_congr rfl fun w _ => congrArg v (lift_lane h c r w))

/-- The sum over the classes of the lane sums. -/
theorem sum_class'_apply (v : FVec Ideal S8x16x1 .f32) (h : Shape.Reduces S8x16x1 [0] S16x1)
    (hφ : FKind.Formats .f32) (hacc : (0x00000000#32 : BitVec 32) = FKind.add.neutral .f32 hφ)
    (r : Fin 16) (u : Fin 1) :
    multiReduction (F := Ideal) .add [0] S16x1 v 0x00000000#32 h hφ hacc (ix2 r u) = ∑ c : Fin 8, v (ix3 c r u) :=
  (Ideal.multiReduction_add_single v _ h hφ hacc (ix2 r u)).trans
    (Finset.sum_congr rfl fun c _ => congrArg v (lift_class' h r u c))

/-- The sum over the rows. -/
theorem sum_row_apply (v : FVec Ideal S1x16x1 .f32) (h : Shape.Reduces S1x16x1 [1] S1x1)
    (hφ : FKind.Formats .f32) (hacc : (0x00000000#32 : BitVec 32) = FKind.add.neutral .f32 hφ)
    (u u' : Fin 1) :
    multiReduction (F := Ideal) .add [1] S1x1 v 0x00000000#32 h hφ hacc (ix2 u u') = ∑ r : Fin 16, v (ix3 u r u') :=
  (Ideal.multiReduction_add_single v _ h hφ hacc (ix2 u u')).trans
    (Finset.sum_congr rfl fun r _ => congrArg v (lift_row h u u' r))

/-! ## The layout operations read at an index -/

section Layout
variable {α : Type}

/-- A unit class axis inserted: (batch, row, lane) read at (batch, unit, row, lane). -/
theorem cast_keep_class (v : S32x16x256.Idx → α) (h : S32x16x256.ShapeCasts S32x1x16x256)
    (b : Fin 32) (u : Fin 1) (r : Fin 16) (w : Fin 256) :
    shapeCast S32x1x16x256 v h (ix4 b u r w) = v (ix3 b r w) :=
  shapeCast_apply v h _ _ (by
    have hu : u.val = 0 := by omega
    rw [Shape.rowMajor_val_three, Shape.rowMajor_val_four]
    show (b.val * 16 + r.val) * 256 + w.val = ((b.val * 1 + u.val) * 16 + r.val) * 256 + w.val
    rw [hu, Nat.mul_one, Nat.add_zero])

/-- The unit class axis spread over the eight classes. -/
theorem spread_class (v : S32x1x16x256.Idx → α) (h : S32x1x16x256.Broadcasts S32x8x16x256)
    (b : Fin 32) (c : Fin 8) (r : Fin 16) (w : Fin 256) :
    broadcastTo S32x8x16x256 v h (ix4 b c r w) = v (ix4 b (0 : Fin 1) r w) := by
  refine broadcastTo_apply v h (ix4 b c r w) (ix4 b (0 : Fin 1) r w) fun ax => ?_
  match ax with
  | ⟨0, _⟩ => rfl
  | ⟨1, _⟩ => rfl
  | ⟨2, _⟩ => rfl
  | ⟨3, _⟩ => rfl

/-- A trailing unit axis added to (class, row). -/
theorem cast_lane_unit (v : S8x16.Idx → α) (h : S8x16.ShapeCasts S8x16x1) (c : Fin 8) (r : Fin 16) (u : Fin 1) :
    shapeCast S8x16x1 v h (ix3 c r u) = v (ix2 c r) :=
  shapeCast_apply v h _ _ (by
    have hu : u.val = 0 := by omega
    rw [Shape.rowMajor_val_two, Shape.rowMajor_val_three]
    show c.val * 16 + r.val = (c.val * 16 + r.val) * 1 + u.val
    rw [hu, Nat.mul_one, Nat.add_zero])

/-- A leading unit axis added to (row, unit). -/
theorem cast_class_unit (v : S16x1.Idx → α) (h : S16x1.ShapeCasts S1x16x1) (u : Fin 1) (r : Fin 16) (u' : Fin 1) :
    shapeCast S1x16x1 v h (ix3 u r u') = v (ix2 r u') :=
  shapeCast_apply v h _ _ (by
    have hu : u.val = 0 := by omega
    rw [Shape.rowMajor_val_two, Shape.rowMajor_val_three]
    show r.val * 1 + u'.val = (u.val * 16 + r.val) * 1 + u'.val
    rw [hu, Nat.zero_mul, Nat.zero_add])

/-- The one element of a unit matrix read as the one element of a unit cube. -/
theorem cast_row_unit (v : S1x1.Idx → α) (h : S1x1.ShapeCasts S1x1x1) (j : S1x1x1.Idx) :
    shapeCast S1x1x1 v h j = v (ix2 (0 : Fin 1) (0 : Fin 1)) := by
  obtain ⟨a, b, c, rfl⟩ : ∃ (a b c : Fin 1), j = ix3 a b c := ⟨j 0, j 1, j 2, eq_ix3 j⟩
  exact shapeCast_apply v h _ _ (by
    have ha : a.val = 0 := by omega
    have hb : b.val = 0 := by omega
    have hc : c.val = 0 := by omega
    rw [Shape.rowMajor_val_two, Shape.rowMajor_val_three]
    show 0 * 1 + 0 = (a.val * 1 + b.val) * 1 + c.val
    rw [ha, hb, hc])

end Layout

/-! ## The arithmetic of one block read at an index -/

/-- The shifted exponential of the block at (batch, class, row, lane) is the column's. -/
theorem exps_apply (x : FVec Ideal S32x8x16x256 .f32) (h : Shape.Reduces S32x8x16x256 [1] S32x16x256)
    (hφ : FKind.Formats .f32) (hmax : (0xFF800000#32 : BitVec 32) = FKind.maximumf.neutral .f32 hφ)
    (hc : S32x16x256.ShapeCasts S32x1x16x256) (hb : S32x1x16x256.Broadcasts S32x8x16x256)
    (b : Fin 32) (c : Fin 8) (r : Fin 16) (w : Fin 256) :
    exp (subf x (broadcastTo S32x8x16x256 (shapeCast S32x1x16x256
        (multiReduction (F := Ideal) .maximumf [1] S32x16x256 x 0xFF800000#32 h hφ hmax) hc) hb)) (ix4 b c r w)
      = colExp (bcol x r w) b c :=
  congrArg (fun m : EReal => Ideal.exp (x (ix4 b c r w) - m))
    (((spread_class _ hb b c r w).trans (cast_keep_class _ hc b 0 r w)).trans (max_class_apply x h hφ hmax b r w))

/-- One over the sum of the exponentials `e` over the classes, spread back over the classes. -/
theorem recip_apply (e : FVec Ideal S32x8x16x256 .f32) (h : Shape.Reduces S32x8x16x256 [1] S32x16x256)
    (hφ : FKind.Formats .f32) (hadd : (0x00000000#32 : BitVec 32) = FKind.add.neutral .f32 hφ)
    (hc : S32x16x256.ShapeCasts S32x1x16x256) (hb : S32x1x16x256.Broadcasts S32x8x16x256)
    (b : Fin 32) (c : Fin 8) (r : Fin 16) (w : Fin 256) :
    broadcastTo S32x8x16x256 (divf (broadcast S32x1x16x256 (FloatOps.ofBits (F := Ideal) .f32 0x3F800000#32))
        (shapeCast S32x1x16x256 (multiReduction (F := Ideal) .add [1] S32x16x256 e 0x00000000#32 h hφ hadd) hc)) hb
        (ix4 b c r w)
      = Ideal.div ONE (∑ c' : Fin 8, e (ix4 b c' r w)) :=
  (spread_class _ hb b c r w).trans
    (congrArg (Ideal.div ONE) ((cast_keep_class _ hc b 0 r w).trans (sum_class_apply e h hφ hadd b r w)))

/-- The exponential times that reciprocal is the softmax in its product spelling. -/
theorem soft_apply (x e : FVec Ideal S32x8x16x256 .f32)
    (he : ∀ (b : Fin 32) (c : Fin 8) (r : Fin 16) (w : Fin 256), e (ix4 b c r w) = colExp (bcol x r w) b c)
    (h : Shape.Reduces S32x8x16x256 [1] S32x16x256)
    (hφ : FKind.Formats .f32) (hadd : (0x00000000#32 : BitVec 32) = FKind.add.neutral .f32 hφ)
    (hc : S32x16x256.ShapeCasts S32x1x16x256) (hb : S32x1x16x256.Broadcasts S32x8x16x256)
    (b : Fin 32) (c : Fin 8) (r : Fin 16) (w : Fin 256) :
    mulf e (broadcastTo S32x8x16x256 (divf (broadcast S32x1x16x256 (FloatOps.ofBits (F := Ideal) .f32 0x3F800000#32))
        (shapeCast S32x1x16x256 (multiReduction (F := Ideal) .add [1] S32x16x256 e 0x00000000#32 h hφ hadd) hc)) hb)
        (ix4 b c r w)
      = softK (bcol x r w) b c :=
  congrArg₂ (fun a d : EReal => a * d) (he b c r w)
    ((recip_apply e h hφ hadd hc hb b c r w).trans
      (congrArg (Ideal.div ONE) (Finset.sum_congr rfl fun c' _ => he b c' r w)))

/-- The Dice term of class `c` at row `r`, lane `w`, from the block's probabilities `p` and targets `t`. -/
theorem term_apply (p t : FVec Ideal S32x8x16x256 .f32) (h : Shape.Reduces S32x8x16x256 [0] S8x16x256)
    (hφ : FKind.Formats .f32) (hadd : (0x00000000#32 : BitVec 32) = FKind.add.neutral .f32 hφ)
    (c : Fin 8) (r : Fin 16) (w : Fin 256) :
    divf
      (addf (mulf (broadcast S8x16x256 (FloatOps.ofBits (F := Ideal) .f32 0x40000000#32))
                  (multiReduction (F := Ideal) .add [0] S8x16x256 (mulf p t) 0x00000000#32 h hφ hadd))
            (broadcast S8x16x256 (FloatOps.ofBits (F := Ideal) .f32 0x358637BD#32)))
      (addf (multiReduction (F := Ideal) .add [0] S8x16x256 (addf p t) 0x00000000#32 h hφ hadd)
            (broadcast S8x16x256 (FloatOps.ofBits (F := Ideal) .f32 0x358637BD#32))) (ix3 c r w)
      = termOf (fun b c' => p (ix4 b c' r w)) (fun b c' => t (ix4 b c' r w)) c :=
  congrArg₂ (fun a d : EReal => Ideal.div (TWO * a + EPS) (d + EPS))
    (sum_batch_apply (mulf p t) h hφ hadd c r w) (sum_batch_apply (addf p t) h hφ hadd c r w)

end Tile

open Tile

/-! ## The block's payload -/

/-- The value one block contributes: its one element is the sum of the block's Dice terms, rows outermost, then
    classes, then lanes. -/
theorem pay3_apply (x0 x1 : Vec Ideal Cert.KernelIdeal.S32x8x16x256 .f32) (j : Cert.KernelIdeal.S1x1x1.Idx) :
    Cert.KernelIdeal.Gen.k0_pay3 (F := Ideal) x0 x1 j = tileSum x0 x1 := by
  unfold Cert.KernelIdeal.Gen.k0_pay3 tileSum
  refine (cast_row_unit _ _ j).trans ?_
  refine (sum_row_apply _ _ _ _ 0 0).trans ?_
  refine Finset.sum_congr rfl fun r _ => ?_
  refine (cast_class_unit _ _ 0 r 0).trans ?_
  refine (sum_class'_apply _ _ _ _ r 0).trans ?_
  refine Finset.sum_congr rfl fun c _ => ?_
  refine (cast_lane_unit _ _ c r 0).trans ?_
  refine (sum_lane_apply _ _ _ _ c r).trans ?_
  refine Finset.sum_congr rfl fun w _ => ?_
  refine (term_apply _ _ _ _ _ c r w).trans ?_
  refine congrArg (fun p : Col => termOf p (bcol x1 r w) c) ?_
  funext b c'
  refine soft_apply x0 _ ?_ _ _ _ _ _ b c' r w
  exact fun b c r w => exps_apply x0 _ _ _ _ _ b c r w

end Cert.Dice

end
-- ==== Proof.Algebra.lean ====
/-
  The algebra of the Dice loss over plain extended reals.

  Four facts, none of which mentions either program:
    * the running sum restarted at every eighth block, read at the last block of a group of eight, is the sum of that
      group's eight tiles;
    * the two spellings of the softmax, e * (1 / s) and e / s, agree when every logit is a real number, because then the
      denominator s is a sum of eight positive reals and in particular is not zero;
    * hence the two spellings of the Dice term agree;
    * the per-block sums, added over the two groups of eight blocks, are the sum over the whole plane and the classes:
      (group, block in group, row in block) enumerates the 256 rows once each.
  Extended-real addition is commutative and associative at the infinities too, so every re-association and re-ordering
  of sums below holds without any finiteness; only the softmax needs the logits to be finite.
-/
import Mathlib.Algebra.BigOperators.Fin
import Mathlib.Algebra.BigOperators.Group.Finset.Basic
import Mathlib.Algebra.Order.BigOperators.Group.Finset
import Mathlib.Data.Finset.Fold
import Mathlib.Data.EReal.Basic
import Mathlib.Data.EReal.Operations
import Mathlib.Data.EReal.Inv
import Mathlib.Logic.Equiv.Fin.Basic
import Idealize.ShloMosaic.PureOps.Ideal.Laws
import Idealize.ShloMosaic.Lib.ValueIdx
import proofs.«130776_j78065325572508_2_alg».proof.Proof.Spec

noncomputable section

namespace Cert.Dice

open Idealize.ShloMosaic Idealize.ShloMosaic.ValueIdx

/-! ## The literals -/

/-- The word 0x00000000 is zero. -/
theorem ZERO_eq : ZERO = 0 := by unfold ZERO; exact Ideal.ofBits_zero_f32

/-- The word 0xFF800000 is minus infinity. -/
theorem NEG_eq : NEG = ⊥ := by simp [NEG, Ideal.ofBits, Ideal.ieee]

/-- The word 0x3F800000 is one: sign 0, exponent field 127, fraction 0, so 2^23 * 2^(127 - 127 - 23). -/
theorem ONE_eq : ONE = 1 := by
  simp [ONE, Ideal.ofBits, Ideal.ieee]
  rw [← EReal.coe_mul]
  norm_num

/-! ## The running sum at the end of a group of eight blocks -/

/-- At the first block of a group the running sum restarts: it is zero plus that block's tile. -/
theorem accum_start (tile : ℕ → EReal) (g : ℕ) : accum tile (8 * g) = tile (8 * g) := by
  cases g with
  | zero => simp [accum, ZERO_eq]
  | succ g' =>
    have e : 8 * (g' + 1) = (8 * g' + 7) + 1 := by ring
    rw [e, accum, if_pos (by omega), ZERO_eq, zero_add]

/-- Inside a group the running sum at offset j is the sum of the tiles at offsets 0..j: at offset 0 it restarts from
    zero, and every later offset below eight adds one tile. -/
theorem accum_offset (tile : ℕ → EReal) (g : ℕ) :
    ∀ j : ℕ, j ≤ 7 → accum tile (8 * g + j) = ∑ k ∈ Finset.range (j + 1), tile (8 * g + k)
  | 0, _ => by
    rw [Nat.add_zero, accum_start]
    simp
  | j + 1, h => by
    have hs : accum tile (8 * g + j + 1) = accum tile (8 * g + j) + tile (8 * g + j + 1) := by
      rw [accum, if_neg (by omega)]
    have e : 8 * g + (j + 1) = 8 * g + j + 1 := rfl
    rw [Finset.sum_range_succ, e, hs, accum_offset tile g j (by omega)]

theorem accum_last (tile : ℕ → EReal) (g : ℕ) : accum tile (8 * g + 7) = ∑ k : Fin 8, tile (8 * g + k.val) := by
  rw [accum_offset tile g 7 le_rfl]
  exact Finset.sum_range (fun k => tile (8 * g + k))

/-! ## The two spellings of the softmax -/

section soft
variable (x : Col) (hx : ∀ b c, ∃ r : ℝ, x b c = (r : EReal))
include hx

/-- The largest of eight real numbers, folded from minus infinity, is a real number: it is at least the first of them,
    so not minus infinity, and every one of them and the starting value are below plus infinity. -/
theorem colMax_real (b : Fin 32) : ∃ m : ℝ, colMax x b = (m : EReal) := by
  have hbot : colMax x b ≠ ⊥ := by
    obtain ⟨r, hr⟩ := hx b 0
    have h1 : x b 0 ≤ colMax x b := by
      unfold colMax
      exact (Finset.le_fold_max _).mpr (Or.inr ⟨0, Finset.mem_univ _, le_rfl⟩)
    intro h0
    rw [h0, hr] at h1
    exact absurd h1 (not_le.mpr (EReal.bot_lt_coe r))
  have htop : colMax x b ≠ ⊤ := by
    have h1 : colMax x b < ⊤ := by
      unfold colMax
      refine (Finset.fold_max_lt _).mpr ⟨by rw [NEG_eq]; exact bot_lt_top, fun c _ => ?_⟩
      obtain ⟨r, hr⟩ := hx b c
      rw [hr]; exact EReal.coe_lt_top r
    exact h1.ne
  exact ⟨(colMax x b).toReal, (EReal.coe_toReal htop hbot).symm⟩

/-- So every shifted exponential is the exponential of a real number, a positive real. -/
theorem colExp_pos (b : Fin 32) (c : Fin 8) : 0 < colExp x b c := by
  obtain ⟨m, hm⟩ := colMax_real x hx b
  obtain ⟨r, hr⟩ := hx b c
  unfold colExp
  rw [hm, hr, ← EReal.coe_sub, Ideal.exp_coe]
  exact_mod_cast Real.exp_pos _

/-- The denominator, a sum of eight positive terms, is positive. -/
theorem colDen_pos (b : Fin 32) : 0 < colDen x b := by
  unfold colDen
  exact lt_of_lt_of_le (colExp_pos x hx b 0)
    (Finset.single_le_sum (fun c _ => (colExp_pos x hx b c).le) (Finset.mem_univ (0 : Fin 8)))

end soft

/-- With a denominator that is not zero both spellings are e * s⁻¹: the division does not take its corner case, and
    1 * s⁻¹ = s⁻¹. -/
theorem soft_eq (x : Col) (hx : ∀ b c, ∃ r : ℝ, x b c = (r : EReal)) : softK x = softR x := by
  funext b c
  have hs : colDen x b ≠ 0 := (colDen_pos x hx b).ne'
  simp only [softK, softR, Ideal.div, if_neg hs, ONE_eq, one_mul]

theorem termK_eq_termR (x t : Col) (hx : ∀ b c, ∃ r : ℝ, x b c = (r : EReal)) : termK x t = termR x t := by
  unfold termK termR
  rw [soft_eq x hx]

/-! ## The blocks cover the plane -/

/-- The index set of extents 2, 1, 1 is its first coordinate: the other two range over one value. -/
def idx211 : (⟨3, ![2, 1, 1]⟩ : Shape).Idx ≃ Fin 2 where
  toFun i := i 0
  invFun g := ix3 g (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- Group g in 0..1, block k in 0..7 of the group and row r in 0..15 of the block enumerate the 256 rows once each:
    row (8 g + k) * 16 + r. So a sum over the rows is the triple sum. -/
theorem sum_rows {M : Type*} [AddCommMonoid M] (H : Fin 256 → M) :
    ∑ g : Fin 2, ∑ k : Fin 8, ∑ r : Fin 16, H (rowOf (8 * g.val + k.val) r) = ∑ h : Fin 256, H h := by
  have e1 : ∑ h : Fin 256, H h = ∑ n : Fin 16, ∑ r : Fin 16, H (finProdFinEquiv (n, r)) := by
    rw [← Equiv.sum_comp (finProdFinEquiv (m := 16) (n := 16)) H, Fintype.sum_prod_type]
  have e2 : ∀ f : Fin 16 → M, ∑ n : Fin 16, f n = ∑ g : Fin 2, ∑ k : Fin 8, f (finProdFinEquiv (g, k)) := by
    intro f
    rw [← Equiv.sum_comp (finProdFinEquiv (m := 2) (n := 8)) f, Fintype.sum_prod_type]
  rw [e1, e2]
  refine Finset.sum_congr rfl fun g _ => Finset.sum_congr rfl fun k _ => Finset.sum_congr rfl fun r _ => ?_
  congr 1
  apply Fin.ext
  simp only [rowOf, finProdFinEquiv, Equiv.coe_fn_mk]
  omega

theorem blocks_total (F : Fin 8 → Fin 256 → Fin 256 → EReal) (tile : ℕ → EReal)
    (htile : ∀ n, n < 16 → tile n = ∑ r : Fin 16, ∑ c : Fin 8, ∑ w : Fin 256, F c (rowOf n r) w) :
    (∑ i : (⟨3, ![2, 1, 1]⟩ : Shape).Idx, accum tile (8 * (i 0).val + 7)) = total F := by
  have h0 : (∑ i : (⟨3, ![2, 1, 1]⟩ : Shape).Idx, accum tile (8 * (i 0).val + 7))
      = ∑ g : Fin 2, accum tile (8 * g.val + 7) :=
    Fintype.sum_equiv idx211 _ _ (fun _ => rfl)
  have h1 : ∀ (g : Fin 2) (k : Fin 8), tile (8 * g.val + k.val)
      = ∑ r : Fin 16, ∑ c : Fin 8, ∑ w : Fin 256, F c (rowOf (8 * g.val + k.val) r) w :=
    fun g k => htile _ (by omega)
  rw [h0]
  simp only [accum_last, h1]
  refine (sum_rows (fun h => ∑ c : Fin 8, ∑ w : Fin 256, F c h w)).trans ?_
  unfold total
  exact Finset.sum_comm

end Cert.Dice

end
-- ==== Proof.Finite.lean ====
/-
  Finiteness of the logits from the precondition.

  The precondition says that the conjunction of two tests, "every |x| is below +inf" over the logits and the same over
  the targets, is true.  A conjunction that is true has both halves true; a reduction by "and" over all axes that is
  true met a true at every index; and |x| = max x (-x) below +inf excludes both infinities, so x is a real number.
-/
import proofs.«130776_j78065325572508_2_alg».proof.Defs
import proofs.«130776_j78065325572508_2_alg».proof.Proof.Gen.Pre_finite_inputs
import Idealize.ShloMosaic.Lib.ReduceAll
import Idealize.ShloMosaic.Lib.ValueIdx
import Idealize.ShloMosaic.PureOps.Ideal

noncomputable section

namespace Cert.Dice

open Idealize.ShloMosaic Idealize.ShloMosaic.TcCoe Idealize.SL.Sem Idealize.ShloMosaic.ValueIdx

/-- The word 0x7F800000 is plus infinity. -/
theorem INF_eq : Ideal.ofBits .f32 0x7F800000#32 = ⊤ := by simp [Ideal.ofBits, Ideal.ieee]

/-- An extended real whose absolute value max x (-x) is below plus infinity is a real number: at minus infinity the
    negation is plus infinity, at plus infinity the value itself is. -/
theorem real_of_abs_lt_inf (x : EReal)
    (h : Ideal.cmp .olt (max x (-x)) (Ideal.ofBits .f32 0x7F800000#32) = 1#1) : ∃ r : ℝ, x = (r : EReal) := by
  rw [INF_eq] at h
  induction x using EReal.rec with
  | bot => simp [Ideal.cmp] at h
  | coe r => exact ⟨r, rfl⟩
  | top => simp [Ideal.cmp] at h

theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x8x256x256.Idx) :
    ∃ r : ℝ, m ((c.tc : Thread Cert.KernelIdeal.nD Cert.KernelIdeal.τ).loc Cert.KernelIdeal.main_arg0) i = (r : EReal) := by
  have h0 := congrFun (h c) ValueIdx.ix0
  dsimp only [Cert.Pre_finite_inputs.fn] at h0
  obtain ⟨h1, _⟩ := IntOp.andi_eq_one.1 h0
  -- the rank-0 result shape has one index, so the reduction over all axes met every element
  haveI : Subsingleton Cert.Pre_finite_inputs.S_.Idx := ⟨fun _ _ => funext fun d => d.elim0⟩
  have h2 := Host.reduce_andi_all _ _ _ _ _ h1 i
  exact real_of_abs_lt_inf _ h2

end Cert.Dice

end
-- ==== Proof.Bridge.lean ====
/-
  The kernel's value is the specification.

  The kernel's result is  1 - (0 + (entry 0 + entry 1)) / 524288  where entry i is the running sum of core i's eight
  block sums, and a block's sum is the sum over its 16 rows, the 8 classes and the 256 lanes of the Dice term of the
  column at that position, with the softmax written as a product with a reciprocal.  A block of an input is sixteen
  consecutive rows of the array, so the column of block n at its row r is the column of the array at row 16 n + r.
  Regrouping the sums (sixteen blocks of sixteen rows are the 256 rows; sums of extended reals may be reordered
  freely) gives the sum over classes, rows and lanes of the kernel's term.  Under the precondition every logit is a
  real number, so the softmax's denominator is a positive real and the product with its reciprocal is the quotient:
  the kernel's term is the reference's, and the kernel's result is the specification `G` of the two arrays.
-/
import proofs.«130776_j78065325572508_2_alg».proof.Proof.KernelValue
import proofs.«130776_j78065325572508_2_alg».proof.Proof.TilePayload
import proofs.«130776_j78065325572508_2_alg».proof.Proof.Algebra
import proofs.«130776_j78065325572508_2_alg».proof.Proof.Finite

noncomputable section
open Idealize.ShloMosaic Idealize.ShloMosaic.TcCoe Idealize.SL.Sem Idealize.ShloMosaic.ValueIdx

namespace Cert.KernelIdeal.DiceFrame
open Cert.KernelIdeal Cert.KernelIdeal.Gen Cert.Dice

variable (m : (ℓ : Loc nD τ sig) → Buf (Elt Ideal) ℓ)

/-- The sum of block `n` is the sum over its rows, the classes and the lanes of the array's terms at rows `16 n + r`. -/
theorem tile_eq (c : Dev nD) (n : ℕ) (hn : n < 16) :
    tileAt m c n = ∑ r : Fin 16, ∑ k : Fin 8, ∑ w : Fin 256,
      termK (col (m ((c.tc : Thread nD τ).loc main_arg0)) (rowOf n r) w) (col (m ((c.tc : Thread nD τ).loc main_arg1)) (rowOf n r) w) k := by
  have hn' : n < cfg0.N := lt_of_lt_of_eq hn (show cfg0.N = 16 from N_0).symm
  rw [← tileAt_of_lt m c n hn' (ix3 0 0 0), pay3_apply]
  unfold tileSum
  refine Finset.sum_congr rfl fun r _ => Finset.sum_congr rfl fun k _ => Finset.sum_congr rfl fun w _ => ?_
  have e0 : bcol (iblk m c 0 ⟨n, hn'⟩) r w = col (m ((c.tc : Thread nD τ).loc main_arg0)) (rowOf n r) w :=
    funext fun b => funext fun k' => blk0_at m c ⟨n, hn'⟩ b k' r w
  have e1 : bcol (iblk m c 1 ⟨n, hn'⟩) r w = col (m ((c.tc : Thread nD τ).loc main_arg1)) (rowOf n r) w :=
    funext fun b => funext fun k' => blk1_at m c ⟨n, hn'⟩ b k' r w
  rw [e0, e1]

/-- Under the precondition the kernel's value is the specification of its two argument arrays. -/
theorem kernel_eq_G [Cert.Pre_finite_inputs.Facts] (hpre : Cert.Pre_KernelIdeal m) (c : Dev nD) :
    kernelVal m c = G (m ((c.tc : Thread nD τ).loc main_arg0)) (m ((c.tc : Thread nD τ).loc main_arg1)) := by
  unfold kernelVal G
  refine congrArg (fun s => result (ZERO + s)) ?_
  have hF : (fun (k : Fin 8) (h w : Fin 256) =>
        termR (col (m ((c.tc : Thread nD τ).loc main_arg0)) h w) (col (m ((c.tc : Thread nD τ).loc main_arg1)) h w) k)
      = (fun (k : Fin 8) (h w : Fin 256) =>
        termK (col (m ((c.tc : Thread nD τ).loc main_arg0)) h w) (col (m ((c.tc : Thread nD τ).loc main_arg1)) h w) k) := by
    funext k h w
    exact (congrFun (termK_eq_termR (col (m ((c.tc : Thread nD τ).loc main_arg0)) h w) (col (m ((c.tc : Thread nD τ).loc main_arg1)) h w)
      (fun b k' => finite_of_pre m hpre c (ix4 b k' h w))) k).symm
  rw [hF]
  show (∑ i : S2x1x1.Idx, accum (tileAt m c) (8 * (i 0).val + 7)) = _
  exact blocks_total _ (tileAt m c) (fun n hn => tile_eq m c n hn)

end Cert.KernelIdeal.DiceFrame
end
-- ==== Proof.RefIsG.lean ====
/-
  The reference program computes the specification.

  Reading the reference one operation at a time: at (b, c, h, w) its softmax is the quotient spelling of the softmax of
  the column at (h, w); the reshape to 32 x 524288 lists (c, h, w) in row-major order, so the batch sums at flat
  position c * 65536 + h * 256 + w are the sums over b of that column's entries of class c, and the quotient there is the
  Dice term of class c in that column. The last sum runs over the flat positions, which row-major order identifies with
  the triples (c, h, w); it is therefore the specification's total, and the two closing operations are the
  specification's `result`. Extended-real addition is commutative and associative, so no finiteness is needed.
-/
import proofs.«130776_j78065325572508_2_alg».proof.Proof.Spec
import proofs.«130776_j78065325572508_2_alg».proof.Proof.Gen.ReferenceIdeal.Read
import Idealize.ShloMosaic.Lib.ValueIdx
import Idealize.ShloMosaic.PureOps.Ideal.Laws
import Idealize.ShloMosaic.PureOps.Reduce

noncomputable section

namespace Cert.Dice

open Idealize.ShloMosaic Idealize.ShloMosaic.TcCoe Idealize.SL.Sem Idealize.ShloMosaic.ValueIdx
open Cert.ReferenceIdeal Cert.ReferenceIdeal.Gen Cert.ReferenceIdeal.Read

namespace Ref

/-- The type of either input array: 32 x 8 x 256 x 256 extended reals. -/
abbrev Inp := (⟨Cert.ReferenceIdeal.S32x8x256x256, .f32⟩ : BufTy).Contents (Elt Ideal)

/-- The reduced index (b, h, w) with class `c` put back on axis 1 is (b, c, h, w). -/
theorem lift_ix3 (hr : S32x8x256x256.Reduces [1] S32x256x256) (b : Fin 32) (h w : Fin 256)
    (c : Fin (S32x8x256x256.size 1)) :
    hr.lift (ix3 b h w) c = ix4 b (⟨c.val, c.isLt⟩ : Fin 8) h w := by
  funext a; apply Fin.ext
  fin_cases a <;> rfl

/-- The class-axis maximum of the reference at (b, h, w) is the column's maximum of batch entry `b`. -/
theorem v0_at (X : Inp) (b : Fin 32) (h w : Fin 256) :
    val_main_v0 (F := Ideal) X (ix3 b h w) = colMax (col X h w) b := by
  have hr : S32x8x256x256.Reduces [1] S32x256x256 := by decide
  unfold val_main_v0
  refine (Host.reduce_eq_fold_single (FloatOps.maximumf (F := Ideal) (φ := .f32)) X _
    reducesTo_S32x8x256x256_S32x256x256_d1 hr h_S_ (ix3 b h w)).trans ?_
  have hf : (X ∘ hr.lift (ix3 b h w)) = fun c : Fin 8 => X (ix4 b c h w) :=
    funext fun c => congrArg X (lift_ix3 hr b h w c)
  exact congrArg (fun f => Finset.fold max NEG f (Finset.univ : Finset (Fin 8))) hf

/-! ## The softmax, read at (b, c, h, w) -/

theorem idx3_4 (b : Fin 32) (c : Fin 8) (h w : Fin 256) :
    idx_main_v3 (idx_main_v4 (ix4 b c h w)) = ix3 b h w := by
  funext a; apply Fin.ext
  match a with
  | ⟨0, _⟩ => rfl
  | ⟨1, _⟩ => rfl
  | ⟨2, _⟩ => rfl

theorem idx8_9 (b : Fin 32) (c : Fin 8) (h w : Fin 256) :
    idx_main_v8 (idx_main_v9 (ix4 b c h w)) = ix3 b h w := by
  funext a; apply Fin.ext
  match a with
  | ⟨0, _⟩ => rfl
  | ⟨1, _⟩ => rfl
  | ⟨2, _⟩ => rfl

theorem idx7 (b : Fin 32) (h w : Fin 256) (k : Fin 8) : idx_main_v7 (ix3 b h w) k = ix4 b k h w := by
  funext a; apply Fin.ext
  match a with
  | ⟨0, _⟩ => rfl
  | ⟨1, _⟩ => rfl
  | ⟨2, _⟩ => rfl
  | ⟨3, _⟩ => rfl

/-- The maximum with the broadcast -inf changes nothing: -inf is below a fold of max started from it. -/
theorem v4_at (X : Inp) (b : Fin 32) (c : Fin 8) (h w : Fin 256) :
    val_main_v4 (F := Ideal) X (ix4 b c h w) = colMax (col X h w) b := by
  rw [val_main_v4_apply, val_main_v3_apply, idx3_4, val_main_v2_apply, val_main_v1_apply, val_main_cst_0_apply, v0_at]
  show max NEG (Finset.fold max NEG (fun c => col X h w b c) (Finset.univ : Finset (Fin 8))) = _
  exact max_eq_right ((Finset.le_fold_max _).2 (Or.inl le_rfl))

theorem v6_at (X : Inp) (b : Fin 32) (c : Fin 8) (h w : Fin 256) :
    val_main_v6 (F := Ideal) X (ix4 b c h w) = colExp (col X h w) b c := by
  rw [val_main_v6_apply, val_main_v5_apply, v4_at]
  rfl

theorem v7_at (X : Inp) (b : Fin 32) (h w : Fin 256) :
    val_main_v7 (F := Ideal) X (ix3 b h w) = colDen (col X h w) b := by
  rw [val_main_v7_apply, val_main_cst_1_apply]
  simp only [idx7, v6_at]
  show Ideal.ofBits .f32 0x00000000#32 + _ = _
  rw [Ideal.ofBits_zero_f32, zero_add]
  rfl

theorem v9_at (X : Inp) (b : Fin 32) (c : Fin 8) (h w : Fin 256) :
    val_main_v9 (F := Ideal) X (ix4 b c h w) = colDen (col X h w) b := by
  rw [val_main_v9_apply, val_main_v8_apply, idx8_9, v7_at]

/-- The reference's softmax at (b, c, h, w) is the quotient spelling of the column's softmax. -/
theorem v10_at (X : Inp) (b : Fin 32) (c : Fin 8) (h w : Fin 256) :
    val_main_v10 (F := Ideal) X (ix4 b c h w) = softR (col X h w) b c := by
  rw [val_main_v10_apply, v6_at, v9_at]
  rfl

/-- The flat position of class `c`, row `h`, lane `w` in the row-major 8 x 256 x 256 order. -/
def flat (c : Fin 8) (h w : Fin 256) : Fin 524288 :=
  ⟨c.val * 65536 + h.val * 256 + w.val, by have := c.isLt; have := h.isLt; have := w.isLt; omega⟩

/-- Row-major order identifies the triples (class, row, lane) with the flat positions. -/
def flatEquiv : Fin 8 × Fin 256 × Fin 256 ≃ Fin 524288 where
  toFun p := flat p.1 p.2.1 p.2.2
  invFun n := (⟨n.val / 65536, by have := n.isLt; omega⟩, ⟨n.val / 256 % 256, Nat.mod_lt _ (by decide)⟩,
    ⟨n.val % 256, Nat.mod_lt _ (by decide)⟩)
  left_inv p := by
    obtain ⟨c, h, w⟩ := p
    have := c.isLt; have := h.isLt; have := w.isLt
    refine Prod.ext (Fin.ext ?_) (Prod.ext (Fin.ext ?_) (Fin.ext ?_))
    · show (c.val * 65536 + h.val * 256 + w.val) / 65536 = c.val; omega
    · show (c.val * 65536 + h.val * 256 + w.val) / 256 % 256 = h.val; omega
    · show (c.val * 65536 + h.val * 256 + w.val) % 256 = w.val; omega
  right_inv n := by
    apply Fin.ext
    show n.val / 65536 * 65536 + n.val / 256 % 256 * 256 + n.val % 256 = n.val
    omega

/-- A sum over the flat positions is the triple sum over classes, rows and lanes. -/
theorem sum_flat {M : Type*} [AddCommMonoid M] (g : S524288.Idx → M) :
    ∑ j : S524288.Idx, g j = ∑ c : Fin 8, ∑ h : Fin 256, ∑ w : Fin 256, g (ix1 (flat c h w)) := by
  have e1 : ∑ j : S524288.Idx, g j = ∑ n : Fin 524288, g (ix1 n) := by
    refine Fintype.sum_equiv ⟨fun j => j 0, fun n => ix1 n, fun j => (eq_ix1 j).symm, fun _ => rfl⟩ _ _ fun j => ?_
    exact congrArg g (eq_ix1 j)
  rw [e1, ← Equiv.sum_comp flatEquiv (fun n => g (ix1 n)), Fintype.sum_prod_type]
  refine Finset.sum_congr rfl fun c _ => ?_
  rw [Fintype.sum_prod_type]
  rfl

/-! ## The Dice term, read at a flat position -/

theorem idx14 (n : Fin 524288) (k : Fin 32) : idx_main_v14 (ix1 n) k = ix2 k n := by
  funext a
  match a with
  | ⟨0, _⟩ => rfl
  | ⟨1, _⟩ => rfl

theorem idx15 (n : Fin 524288) (k : Fin 32) : idx_main_v15 (ix1 n) k = ix2 k n := by
  funext a
  match a with
  | ⟨0, _⟩ => rfl
  | ⟨1, _⟩ => rfl

theorem idx16 (n : Fin 524288) (k : Fin 32) : idx_main_v16 (ix1 n) k = ix2 k n := by
  funext a
  match a with
  | ⟨0, _⟩ => rfl
  | ⟨1, _⟩ => rfl

/-- The reshape reads flat position (class, row, lane) of batch entry `k` at (k, class, row, lane). -/
theorem idx11 (k : Fin 32) (c : Fin 8) (h w : Fin 256) :
    idx_main_v11 (ix2 k (flat c h w)) = ix4 k c h w := by
  funext a; apply Fin.ext
  have := k.isLt; have := c.isLt; have := h.isLt; have := w.isLt
  match a with
  | ⟨0, _⟩ => show (k.val * 524288 + (c.val * 65536 + h.val * 256 + w.val)) / 524288 = k.val; omega
  | ⟨1, _⟩ => show (k.val * 524288 + (c.val * 65536 + h.val * 256 + w.val)) / 65536 % 8 = c.val; omega
  | ⟨2, _⟩ => show (k.val * 524288 + (c.val * 65536 + h.val * 256 + w.val)) / 256 % 256 = h.val; omega
  | ⟨3, _⟩ => show (k.val * 524288 + (c.val * 65536 + h.val * 256 + w.val)) % 256 = w.val; omega

theorem idx12 (k : Fin 32) (c : Fin 8) (h w : Fin 256) :
    idx_main_v12 (ix2 k (flat c h w)) = ix4 k c h w := idx11 k c h w

theorem v11_at (X : Inp) (k : Fin 32) (c : Fin 8) (h w : Fin 256) :
    val_main_v11 (F := Ideal) X (ix2 k (flat c h w)) = softR (col X h w) k c := by
  rw [val_main_v11_apply, idx11, v10_at]

theorem v12_at (T : Inp) (k : Fin 32) (c : Fin 8) (h w : Fin 256) :
    val_main_v12 (F := Ideal) T (ix2 k (flat c h w)) = col T h w k c := by
  rw [val_main_v12_apply, idx12]
  rfl

theorem v13_at (X T : Inp) (k : Fin 32) (c : Fin 8) (h w : Fin 256) :
    val_main_v13 (F := Ideal) X T (ix2 k (flat c h w)) = softR (col X h w) k c * col T h w k c := by
  rw [val_main_v13_apply, v11_at, v12_at]
  rfl

/-- The numerator's batch sum: the literal zero it starts from adds nothing. -/
theorem v14_at (X T : Inp) (c : Fin 8) (h w : Fin 256) :
    val_main_v14 (F := Ideal) X T (ix1 (flat c h w)) = ∑ k : Fin 32, softR (col X h w) k c * col T h w k c := by
  rw [val_main_v14_apply, val_main_cst_2_apply]
  simp only [idx14, v13_at]
  show Ideal.ofBits .f32 0x00000000#32 + _ = _
  rw [Ideal.ofBits_zero_f32, zero_add]

theorem v15_at (X : Inp) (c : Fin 8) (h w : Fin 256) :
    val_main_v15 (F := Ideal) X (ix1 (flat c h w)) = ∑ k : Fin 32, softR (col X h w) k c := by
  rw [val_main_v15_apply, val_main_cst_3_apply]
  simp only [idx15, v11_at]
  show Ideal.ofBits .f32 0x00000000#32 + _ = _
  rw [Ideal.ofBits_zero_f32, zero_add]

theorem v16_at (T : Inp) (c : Fin 8) (h w : Fin 256) :
    val_main_v16 (F := Ideal) T (ix1 (flat c h w)) = ∑ k : Fin 32, col T h w k c := by
  rw [val_main_v16_apply, val_main_cst_4_apply]
  simp only [idx16, v12_at]
  show Ideal.ofBits .f32 0x00000000#32 + _ = _
  rw [Ideal.ofBits_zero_f32, zero_add]

/-- The reference's quotient at the flat position of (class, row, lane) is the Dice term of that class in that column. -/
theorem v24_at (X T : Inp) (c : Fin 8) (h w : Fin 256) :
    val_main_v24 (F := Ideal) X T (ix1 (flat c h w)) = termR (col X h w) (col T h w) c := by
  rw [val_main_v24_apply, val_main_v21_apply, val_main_v19_apply, val_main_v18_apply, val_main_cst_5_apply, v14_at,
    val_main_v20_apply, val_main_cst_6_apply, val_main_v23_apply, val_main_v17_apply, v15_at, v16_at,
    val_main_v22_apply, val_main_cst_7_apply]
  unfold termR termOf
  rw [Finset.sum_add_distrib]
  rfl

end Ref

open Ref

/-! ## The whole reference -/

/-- The reference's one result element is the specification's loss of the two inputs: its last sum over the flat
    positions is the total over classes, rows and lanes of the columns' Dice terms. -/
theorem ref_eq (X T : (⟨Cert.ReferenceIdeal.S32x8x256x256, .f32⟩ : BufTy).Contents (Elt Ideal)) :
    Cert.ReferenceIdeal.Read.val_main_v27 (F := Ideal) X T = fun _ => G X T := by
  funext i
  rw [val_main_v27_apply, val_main_cst_10_apply, val_main_v26_apply, val_main_v25_apply, val_main_cst_8_apply,
    val_main_cst_9_apply, sum_flat]
  simp only [v24_at]
  rfl

end Cert.Dice

end
-- ==== Proof.lean ====
/-
  The certificate of the Dice-loss kernel against its reference.

  Both programs compute, from logits x and targets t of shape [32, 8, 256, 256],
      1 - (sum over classes c, rows h, lanes w of (2 * sum_b p t + eps) / (sum_b p + sum_b t + eps)) / 524288
  with p the softmax of x over the class axis.  The kernel walks the 256 rows in sixteen blocks of sixteen, two cores
  taking eight blocks each and keeping a running sum; it writes the softmax as e * (1 / s) and sums p + t in one sweep.
  The reference writes e / s, sums p and t apart, and adds all 524288 terms at once.  Over the extended reals sums may
  be regrouped freely, and e * (1 / s) = e / s as soon as s is not zero, which the precondition gives: finite logits
  make every shifted exponential a positive real.  So both programs end at one function of the arguments (`Cert.Dice.G`).

  The three frame conjuncts are the programs' runs with the results forgotten; the idealization rewrote nothing, so the
  preservation conjunct is trivial; the algebraic conjunct joins the kernel's run, read as a value, to the reference's.
-/
import proofs.«130776_j78065325572508_2_alg».proof.Defs
import proofs.«130776_j78065325572508_2_alg».proof.Proof.Gen.Kernel
import proofs.«130776_j78065325572508_2_alg».proof.Proof.Gen.Kernel.Skeleton
import proofs.«130776_j78065325572508_2_alg».proof.Proof.Gen.Kernel.Launch
import proofs.«130776_j78065325572508_2_alg».proof.Proof.Gen.Kernel.Points
import proofs.«130776_j78065325572508_2_alg».proof.Proof.Gen.Kernel.Frame
import proofs.«130776_j78065325572508_2_alg».proof.Proof.Gen.KernelIdeal
import proofs.«130776_j78065325572508_2_alg».proof.Proof.Gen.KernelIdeal.Skeleton
import proofs.«130776_j78065325572508_2_alg».proof.Proof.Gen.KernelIdeal.Launch
import proofs.«130776_j78065325572508_2_alg».proof.Proof.Gen.KernelIdeal.Points
import proofs.«130776_j78065325572508_2_alg».proof.Proof.Gen.KernelIdeal.Frame
import proofs.«130776_j78065325572508_2_alg».proof.Proof.Gen.ReferenceIdeal
import proofs.«130776_j78065325572508_2_alg».proof.Proof.Gen.Pre_finite_inputs
import proofs.«130776_j78065325572508_2_alg».proof.Proof.Gen.ReferenceIdeal.Read
import proofs.«130776_j78065325572508_2_alg».proof.Proof.Bridge
import proofs.«130776_j78065325572508_2_alg».proof.Proof.RefIsG
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the arguments, under the precondition, the kernel's program ends at its value, which is
    the specification of its arguments; the reference ends at the specification of its own, which are the same arrays. -/
theorem algebraic : Cert.algebraic_KernelIdeal_ReferenceIdeal := by
  intro m ρ m' ρ' hpre hagree
  refine ⟨fun c => (fun _ => Cert.KernelIdeal.DiceFrame.kernelVal m c), Cert.KernelIdeal.DiceFrame.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq (F := Ideal) _ _).trans ?_
  rw [Cert.Dice.ref_eq, (hagree c).1, (hagree c).2]
  exact funext fun _ => (Cert.KernelIdeal.DiceFrame.kernel_eq_G m hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
